-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S512x512 : Shape := ⟨2, ![512, 512]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S8x16x512x512 .f32) (main_arg1 : FVec F S512x512 .f32) (main_arg2 : IVec S512x512 1) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S8x16x512x512 : Shape := ⟨4, ![8, 16, 512, 512]⟩
abbrev S512x512 : Shape := ⟨2, ![512, 512]⟩
abbrev S128x512x512 : Shape := ⟨3, ![128, 512, 512]⟩
abbrev S4x512x512 : Shape := ⟨3, ![4, 512, 512]⟩
abbrev S1x512x512 : Shape := ⟨3, ![1, 512, 512]⟩
abbrev S1x8x16x512x512 : Shape := ⟨5, ![1, 8, 16, 512, 512]⟩

abbrev nBuf : Space → Nat
  | .hbm => 7
  | .vmem => 6
  | .smem => 0
  | _ => 0

abbrev bufTy : (tb : Table) → Fin (tcTables nBuf tb) → BufTy
  | .hbm, ⟨0, _⟩ => ⟨S8x16x512x512, .f32⟩
  | .hbm, ⟨1, _⟩ => ⟨S512x512, .f32⟩
  | .hbm, ⟨2, _⟩ => ⟨S512x512, .i1⟩
  | .hbm, ⟨3, _⟩ => ⟨S128x512x512, .f32⟩
  | .hbm, ⟨4, _⟩ => ⟨S512x512, .i32⟩
  | .hbm, ⟨5, _⟩ => ⟨S128x512x512, .f32⟩
  | .hbm, ⟨6, _⟩ => ⟨S1x8x16x512x512, .f32⟩
  | .local _ .vmem, ⟨0, _⟩ => ⟨S4x512x512, .f32⟩
  | .local _ .vmem, ⟨1, _⟩ => ⟨S4x512x512, .f32⟩
  | .local _ .vmem, ⟨2, _⟩ => ⟨S512x512, .f32⟩
  | .local _ .vmem, ⟨3, _⟩ => ⟨S512x512, .i32⟩
  | .local _ .vmem, ⟨4, _⟩ => ⟨S4x512x512, .f32⟩
  | .local _ .vmem, ⟨5, _⟩ => ⟨S4x512x512, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x16x512x512_S128x512x512 : S8x16x512x512.ShapeCasts S128x512x512
  natLt_1_32 : 1 < 32
  inb_S512x512_S512x512_0_0 : ∀ a, (![0, 0] : Fin 2 → Nat) a + S512x512.size a ≤ S512x512.size a
  h_S512x512 : 0 < S512x512.numel
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  shapeCasts_S512x512_S1x512x512 : S512x512.ShapeCasts S1x512x512
  broadcasts_S1x512x512_S4x512x512 : S1x512x512.Broadcasts S4x512x512
  shapeCasts_S128x512x512_S1x8x16x512x512 : S128x512x512.ShapeCasts S1x8x16x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S128x512x512.size a
  hwx0_0 : ∀ i : grid0.Coords, EltTy.bits .f32 = 32 ∨ (Rect.block (s := S128x512x512) S4x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .i32 = 32 ∨ (Rect.block (s := S512x512) S512x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512x512.size a ≤ S128x512x512.size a
  hwx0_3 : ∀ i : grid0.Coords, EltTy.bits .f32 = 32 ∨ (Rect.block (s := S128x512x512) S4x512x512.size (cc0_transform_3 i) (hinb0_3 i)).WholeWords (EltTy.packing .f32)

variable [Facts₀]

abbrev win0_0 : Pipeline.Window sig grid0 :=
  Pipeline.Window.ofSpec (Memref.whole main_v0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x16x512x512 : Shape := ⟨4, ![8, 16, 512, 512]⟩
abbrev S512x512 : Shape := ⟨2, ![512, 512]⟩
abbrev S_ : Shape := ⟨0, ![]⟩
abbrev S1x1x1x512x512 : Shape := ⟨5, ![1, 1, 1, 512, 512]⟩
abbrev S1x8x16x512x512 : Shape := ⟨5, ![1, 8, 16, 512, 512]⟩

abbrev nBuf : Space → Nat
  | .hbm => 13
  | .vmem => 0
  | .smem => 0
  | _ => 0

abbrev bufTy : (tb : Table) → Fin (tcTables nBuf tb) → BufTy
  | .hbm, ⟨0, _⟩ => ⟨S8x16x512x512, .f32⟩
  | .hbm, ⟨1, _⟩ => ⟨S512x512, .f32⟩
  | .hbm, ⟨2, _⟩ => ⟨S512x512, .i1⟩
  | .hbm, ⟨3, _⟩ => ⟨S_, .f32⟩
  | .hbm, ⟨4, _⟩ => ⟨S512x512, .f32⟩
  | .hbm, ⟨5, _⟩ => ⟨S_, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S1x1x1x512x512, .f32⟩
  | .hbm, ⟨10, _⟩ => ⟨S1x8x16x512x512, .f32⟩
  | .hbm, ⟨11, _⟩ => ⟨S1x8x16x512x512, .f32⟩
  | .hbm, ⟨12, _⟩ => ⟨S1x8x16x512x512, .f32⟩
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512x512_S1x1x1x512x512_3_4 : S512x512.BroadcastsInDim S1x1x1x512x512 (![3, 4] : Fin 2 → Fin S1x1x1x512x512.rank)
  bcast_S8x16x512x512_S1x8x16x512x512_1_2_3_4 : S8x16x512x512.BroadcastsInDim S1x8x16x512x512 (![1, 2, 3, 4] : Fin 4 → Fin S1x8x16x512x512.rank)
  bcast_S1x1x1x512x512_S1x8x16x512x512_0_1_2_3_4 : S1x1x1x512x512.BroadcastsInDim S1x8x16x512x512 (![0, 1, 2, 3, 4] : Fin 5 → Fin S1x8x16x512x512.rank)

variable [Facts₀]

class Facts : Prop extends Facts₀ where

variable [Facts]
-- ==== Proof.MaskSpec.lean ====
/-
  The result both programs compute, as one function of the three argument arrays, and the small laws that join the two
  spellings of the mask.

  Entry (0, b, c, h, w) of the result is  image[b, c, h, w] · keep[h, w],  where keep[h, w] is 0 when pruned[h, w] is set
  and weight[h, w] otherwise.  The kernel selects between the literal 0 and the weight; the reference multiplies the weight
  by an indicator that is 0 or 1.  On the extended reals  x · 0 = 0  and  x · 1 = x  hold for EVERY x, infinite ones
  included, so the two agree with no finiteness assumption.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.MaskedImage

/-- The weight with its pruned entries zeroed. -/
def keep (w : FVec Ideal ⟨2, ![512, 512]⟩ .f32) (p : IVec ⟨2, ![512, 512]⟩ 1) : FVec Ideal ⟨2, ![512, 512]⟩ .f32 :=
  fun j => if p j = 1#1 then 0 else w j

/-- The masked image with a leading unit axis: entry (0, b, c, h, w) is image[b, c, h, w] · keep[h, w]. -/
def masked (x : FVec Ideal ⟨4, ![8, 16, 512, 512]⟩ .f32) (w : FVec Ideal ⟨2, ![512, 512]⟩ .f32) (p : IVec ⟨2, ![512, 512]⟩ 1) :
    FVec Ideal ⟨5, ![1, 8, 16, 512, 512]⟩ .f32 :=
  fun i => x (ix4 (i 1) (i 2) (i 3) (i 4)) * keep w p (ix2 (i 3) (i 4))

/-- The word of the float 1.0 denotes the real number 1. -/
theorem ofBits_one : Ideal.ofBits .f32 0x3F800000#32 = (1 : EReal) := by
  simp [Ideal.ofBits, Ideal.ieee, -EReal.coe_mul] <;> norm_num

/-- A one-bit word widened to 32 bits is different from zero exactly when the bit is set: the comparison gives the bit back. -/
theorem widened_ne_zero (b : BitVec 1) : IntOp.cmpi .ne (b.setWidth 32) 0#32 = b := by
  rcases BitVec.eq_zero_or_eq_one b with rfl | rfl <;> rfl

/-- Selecting the literal zero on a set bit and the weight otherwise is the kept weight. -/
theorem select_zero_or (b : BitVec 1) (w : EReal) :
    Scalar.select b (Ideal.ofBits .f32 0x00000000#32) w = if b = 1#1 then 0 else w := by
  show (if b = 1#1 then Ideal.ofBits .f32 0x00000000#32 else w) = _
  rw [Ideal.ofBits_zero_f32]

/-- The weight times the indicator (0 on a set bit, 1 otherwise) is the kept weight: w · 0 = 0 and w · 1 = w for every
    extended real w. -/
theorem mul_indicator (b : BitVec 1) (w : EReal) :
    w * Scalar.select b (Ideal.ofBits .f32 0x00000000#32) (Ideal.ofBits .f32 0x3F800000#32) = if b = 1#1 then 0 else w := by
  show w * (if b = 1#1 then Ideal.ofBits .f32 0x00000000#32 else Ideal.ofBits .f32 0x3F800000#32) = _
  by_cases h : b = 1#1
  · rw [if_pos h, if_pos h, Ideal.ofBits_zero_f32, mul_zero]
  · rw [if_neg h, if_neg h, ofBits_one, mul_one]

end Cert.MaskedImage

end
-- ==== Proof.RefSide.lean ====
/-
  The reference's result is the masked image.

  Read one operation at a time, entry i = (0, b, c, h, w) of the reference's last stage is the image's entry (b, c, h, w)
  times the product of the weight's entry (h, w) and an indicator that is 0 where the entry is pruned and 1 elsewhere;
  the indicator law of the specification turns that product into the kept weight.
-/
import proofs.«125473_g13314398617810_cont_week2b_1435_9_alg».proof.Proof.Gen.ReferenceIdeal.Read
import proofs.«125473_g13314398617810_cont_week2b_1435_9_alg».proof.Proof.MaskSpec

noncomputable section

open Idealize.ShloMosaic Idealize.ShloMosaic.ValueIdx

namespace Cert.MaskedImage

open Cert.ReferenceIdeal Cert.ReferenceIdeal.Read

/-- The image is read at the trailing four coordinates of the result's index. -/
theorem image_index (i : S1x8x16x512x512.Idx) : idx_main_v5 i = ix4 (i 1) (i 2) (i 3) (i 4) :=
  funext fun a => Fin.ext (by match a with | ⟨0, _⟩ => rfl | ⟨1, _⟩ => rfl | ⟨2, _⟩ => rfl | ⟨3, _⟩ => rfl)

/-- The weight and the pruning bits are read at the last two coordinates of the result's index. -/
theorem weight_index (i : S1x8x16x512x512.Idx) : idx_main_v4 (idx_main_v6 i) = ix2 (i 3) (i 4) :=
  funext fun a => Fin.ext (by match a with | ⟨0, _⟩ => rfl | ⟨1, _⟩ => rfl)

/-- The reference's last stage, as a function of the three arguments, is the masked image. -/
theorem reference_eq (x0 : FVec Ideal S8x16x512x512 .f32) (x1 : FVec Ideal S512x512 .f32) (x2 : IVec S512x512 1) :
    val_main_v7 (F := Ideal) x0 x1 x2 = masked x0 x1 x2 := by
  funext i
  rw [val_main_v7_apply, val_main_v5_apply, val_main_v6_apply, val_main_v4_apply, val_main_v3_apply, val_main_v2_apply,
    val_main_v0_apply, val_main_v1_apply, val_main_cst_apply, val_main_cst_0_apply, image_index, weight_index]
  show x0 _ * (x1 _ * Scalar.select _ (Ideal.ofBits .f32 0x00000000#32) (Ideal.ofBits .f32 0x3F800000#32)) = _
  rw [mul_indicator]
  rfl

end Cert.MaskedImage

end
-- ==== Proof.KernelBody.lean ====
/-
  What one grid step of the kernel stores, entry by entry.

  A step holds four consecutive (b, c)-slices of the image as a [4, 512, 512] block, the whole [512, 512] weight, and the
  whole [512, 512] array of pruning words (each bit widened to 32 bits before the region).  It builds the kept weight —
  the literal 0 where the word is different from zero, the weight elsewhere —, gives it a leading unit axis, repeats it along
  the four slices and multiplies.  So entry (s, h, w) of the stored block is the image block's entry (s, h, w) times the
  kept weight at (h, w).
-/
import proofs.«125473_g13314398617810_cont_week2b_1435_9_alg».proof.Proof.Gen.KernelIdeal.Skeleton
import proofs.«125473_g13314398617810_cont_week2b_1435_9_alg».proof.Proof.MaskSpec
import Idealize.ShloMosaic.Lib.Pipeline.Value
import Idealize.ShloMosaic.Lib.ValueIdx

noncomputable section

open Idealize.ShloMosaic Idealize.ShloMosaic.ValueIdx

namespace Cert.MaskedImage

open Cert.KernelIdeal Cert.KernelIdeal.Gen

/-- A [512, 512] array given a leading unit axis and repeated along four slices reads, at (s, h, w), its entry (h, w). -/
theorem repeat_slices_apply {α : Type} (f : S512x512.Idx → α) (hc : S512x512.ShapeCasts S1x512x512)
    (hb : S1x512x512.Broadcasts S4x512x512) (j : S4x512x512.Idx) :
    broadcastTo S4x512x512 (shapeCast S1x512x512 f hc) hb j = f (ix2 (j 1) (j 2)) := by
  rw [broadcastTo_apply (shapeCast S1x512x512 f hc) hb j (ix3 (0 : Fin 1) (j 1) (j 2)) (fun a => by
    match a with
    | ⟨0, _⟩ => show (0 : Nat) = if (1 : Nat) = 1 then 0 else _; rw [if_pos rfl]
    | ⟨1, _⟩ => show (j 1).val = if (512 : Nat) = 1 then 0 else (j 1).val; rw [if_neg (by decide)]
    | ⟨2, _⟩ => show (j 2).val = if (512 : Nat) = 1 then 0 else (j 2).val; rw [if_neg (by decide)])]
  rw [shapeCast_addUnit_apply]
  refine congrArg f (funext fun a => ?_)
  match a with
  | ⟨0, _⟩ => rfl
  | ⟨1, _⟩ => rfl

/-- The stored block at (s, h, w): the image block's entry times the kept weight at (h, w), the kept weight spelt as the
    kernel spells it (a select on "the widened word is not zero"). -/
theorem payload_apply (q : Vec Ideal S512x512 .i32) (w : Vec Ideal S512x512 .f32) (x : Vec Ideal S4x512x512 .f32) (j : S4x512x512.Idx) :
    k0_pay1 q w x j
      = x j * Scalar.select (IntOp.cmpi .ne (q (ix2 (j 1) (j 2))) 0#32) (Ideal.ofBits .f32 0x00000000#32) (w (ix2 (j 1) (j 2))) := by
  unfold k0_pay1
  rw [mulf_apply, shapeCast_self, repeat_slices_apply]
  rfl

end Cert.MaskedImage

end
-- ==== Proof.KernelRegion.lean ====
/-
  The region's output array after all 32 grid steps.

  Step t holds slices 4t … 4t+3 of the image viewed as [128, 512, 512] (block index (t, 0, 0) with block [4, 512, 512]),
  the whole weight and the whole array of widened pruning words (block index (0, 0) at every step), and writes back block
  (t, 0, 0) of the output.  So what it writes is the restriction to that block of ONE function of the three arrays the
  region finds — entry (n, h, w) is the image's entry (n, h, w) times the kept weight at (h, w) —, and since the 32 blocks
  tile the first axis (slice n lies in step n / 4's block), the output array ends holding that function everywhere.
-/
import proofs.«125473_g13314398617810_cont_week2b_1435_9_alg».proof.Proof.Gen.KernelIdeal.Frame
import proofs.«125473_g13314398617810_cont_week2b_1435_9_alg».proof.Proof.KernelBody
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.MaskedImage

open Cert.KernelIdeal Cert.KernelIdeal.Gen

variable (m : (ℓ : Loc nD τ sig) → Buf (Elt Ideal) ℓ) (ρ : Dev nD → PrngReg)

/-- The region's output as one function of the arrays it finds: the image as [128, 512, 512], the weight, and the pruning
    words.  Entry (n, h, w) is the image's entry times the kept weight at (h, w), the kept weight in the kernel's spelling. -/
def regionOut (a : FVec Ideal S128x512x512 .f32) (w : FVec Ideal S512x512 .f32) (q : IVec S512x512 32) : FVec Ideal S128x512x512 .f32 :=
  fun i => a i * Scalar.select (IntOp.cmpi .ne (q (ix2 (i 1) (i 2))) 0#32) (Ideal.ofBits .f32 0x00000000#32) (w (ix2 (i 1) (i 2)))

/-- The same entry with the last two coordinates named. -/
theorem regionOut_apply (a : FVec Ideal S128x512x512 .f32) (w : FVec Ideal S512x512 .f32) (q : IVec S512x512 32)
    (i : S128x512x512.Idx) (r s : Fin 512) (hr : (i 1).val = r.val) (hs : (i 2).val = s.val) :
    regionOut a w q i = a i * Scalar.select (IntOp.cmpi .ne (q (ix2 r s)) 0#32) (Ideal.ofBits .f32 0x00000000#32) (w (ix2 r s)) := by
  have e : (ix2 (i 1) (i 2) : S512x512.Idx) = ix2 r s :=
    funext fun d => Fin.ext (by match d with | ⟨0, _⟩ => exact hr | ⟨1, _⟩ => exact hs)
  unfold regionOut
  rw [e]

theorem zero_offsets3 : (![0, 0, 0] : Fin 3 → Nat) = fun _ => 0 := funext fun a => by fin_cases a <;> rfl
theorem zero_offsets2 : (![0, 0] : Fin 2 → Nat) = fun _ => 0 := funext fun a => by fin_cases a <;> rfl

/-- The block indices at step t, decided over the 32 steps: the image's and the output's blocks move together along the
    first axis and sit at 0 on the other two; the weight's and the pruning words' blocks never move. -/
theorem block_indices : ∀ t : Fin cfg0.N,
    win0_0.index t (0 : Fin 3) = win0_3.index t (0 : Fin 3)
    ∧ win0_0.index t (1 : Fin 3) = 0 ∧ win0_0.index t (2 : Fin 3) = 0
    ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every slice group 0 … 31 is some step's output block. -/
theorem step_of_group : ∀ g : Fin 32, ∃ t : Fin cfg0.N, win0_3.index t = ![g.val, 0, 0] :=
  (by decide +kernel : ∀ g : Fin 32, ∃ t : Fin grid0.N, win0_3.index t = ![g.val, 0, 0])

/-- The image block at step t is the image array read through the output's block. -/
theorem image_block (c : Dev nD) (t : Fin cfg0.N) (y : S4x512x512.Idx) :
    (iblk m c 0 t : Vec Ideal S4x512x512 .f32) y = V m c main_v0 (((cfg0.win 3).blk t).view.emb y) := by
  obtain ⟨e0, e1, e2, e3, e4, -⟩ := block_indices t
  show V m c main_v0 (((cfg0.win 0).blk t).view.emb y) = V m c main_v0 (((cfg0.win 3).blk t).view.emb y)
  refine congrArg (V m c main_v0) (funext fun a => Fin.ext ?_)
  match a with
  | ⟨0, _⟩ => show win0_0.index t (0 : Fin 3) * 4 + 1 * (y 0).val = win0_3.index t (0 : Fin 3) * 4 + 1 * (y 0).val; omega
  | ⟨1, _⟩ => show win0_0.index t (1 : Fin 3) * 512 + 1 * (y 1).val = win0_3.index t (1 : Fin 3) * 512 + 1 * (y 1).val; omega
  | ⟨2, _⟩ => show win0_0.index t (2 : Fin 3) * 512 + 1 * (y 2).val = win0_3.index t (2 : Fin 3) * 512 + 1 * (y 2).val; omega

/-- The weight block at every step is the whole weight array. -/
theorem weight_block (c : Dev nD) (t : Fin cfg0.N) (y : S512x512.Idx) :
    (iblk m c 1 t : Vec Ideal S512x512 .f32) y = V m c main_arg1 y := by
  obtain ⟨-, -, -, -, -, e5, e6, -⟩ := block_indices t
  show V m c main_arg1 (((cfg0.win 1).blk t).view.emb y) = V m c main_arg1 y
  refine congrArg (V m c main_arg1) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The block of pruning words at every step is the whole array of them. -/
theorem words_block (c : Dev nD) (t : Fin cfg0.N) (y : S512x512.Idx) :
    (iblk m c 2 t : Vec Ideal S512x512 .i32) y = V m c main_v1 y := by
  obtain ⟨-, -, -, -, -, -, -, e7, e8⟩ := block_indices t
  show V m c main_v1 (((cfg0.win 2).blk t).view.emb y) = V m c main_v1 y
  refine congrArg (V m c main_v1) (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- WHAT STEP t WRITES BACK is block t of `regionOut` of the arrays the region finds. -/
theorem written_back (c : Dev nD) (t : Fin cfg0.N) :
    (dats m 0 c).flushed 3 t
      = ((cfg0.win 3).blk t).view.read (Elt Ideal) (regionOut (V m c main_v0) (V m c main_arg1) (V m c main_v1)) := by
  show (cfg0.win 3).cut (grid0.coords t) ((dats m 0 c).after 3 t) = _
  rw [after0_3]
  unfold out0_3
  rw [View.canon_unit_zero zero_offsets3]
  simp only [View.ld_unit_zero (S := S4x512x512) zero_offsets3, View.ld_unit_zero (S := S512x512) zero_offsets2]
  obtain ⟨-, -, -, e3, e4, -⟩ := block_indices t
  funext j
  show k0_pay1 (iblk m c 2 t) (iblk m c 1 t) (iblk m c 0 t) j
    = regionOut (V m c main_v0) (V m c main_arg1) (V m c main_v1) (((cfg0.win 3).blk t).view.emb j)
  refine (payload_apply (iblk m c 2 t) (iblk m c 1 t) (iblk m c 0 t) j).trans ?_
  rw [image_block, weight_block, words_block]
  refine (regionOut_apply (V m c main_v0) (V m c main_arg1) (V m c main_v1) (((cfg0.win 3).blk t).view.emb j) (j 1) (j 2) ?_ ?_).symm
  · show win0_3.index t (1 : Fin 3) * 512 + 1 * (j 1).val = (j 1).val; omega
  · show win0_3.index t (2 : Fin 3) * 512 + 1 * (j 2).val = (j 2).val; omega

/-- An index of the output array is in step t's block iff each coordinate is in the block's range on its axis. -/
theorem mem_block (t : Fin cfg0.N) (i : S128x512x512.Idx) :
    i ∈ ((cfg0.win 3).blk t).view.set
      ↔ ∀ a : Fin 3, win0_3.index t a * S4x512x512.size a ≤ (i a).val ∧ (i a).val < win0_3.index t a * S4x512x512.size a + S4x512x512.size a := by
  show i ∈ ((View.whole main_v2).slice (win0_3.rect t)).set ↔ _
  rw [View.set_slice_whole, Rect.mem_set_unit]
  exact Iff.rfl

/-- Every index of the output array is in some step's block: slice n is in the block of the step whose group is n / 4. -/
theorem covered (i : S128x512x512.Idx) :
    ∃ t : Fin cfg0.N, (cfg0.win 3).flush t = true ∧ i ∈ ((cfg0.win 3).blk t).view.set := by
  have hi0 : (i 0).val < 128 := (i 0).isLt
  have hi1 : (i 1).val < 512 := (i 1).isLt
  have hi2 : (i 2).val < 512 := (i 2).isLt
  obtain ⟨t, ht⟩ := step_of_group ⟨(i 0).val / 4, by omega⟩
  have q0 : win0_3.index t (0 : Fin 3) = (i 0).val / 4 := congrFun ht 0
  have q1 : win0_3.index t (1 : Fin 3) = 0 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 4 ≤ (i 0).val ∧ (i 0).val < win0_3.index t (0 : Fin 3) * 4 + 4; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-- THE OUTPUT ARRAY after the last step is `regionOut` of the arrays the region finds. -/
theorem output_final (c : Dev nD) :
    (dats m 0 c).arrAt 3 cfg0.N = regionOut (V m c main_v0) (V m c main_arg1) (V m c main_v1) :=
  (dats m 0 c).arrAt_eq_of_cover 3 (regionOut (V m c main_v0) (V m c main_arg1) (V m c main_v1))
    (fun t _ => written_back m c t) covered

end Cert.MaskedImage

end
-- ==== Proof.KernelRun.lean ====
/-
  The kernel's run, read: its result array ends holding the masked image.

  Around the region the program only re-lays arrays.  Before it, the image [8, 16, 512, 512] is viewed as
  [128, 512, 512] — slice n = 16 b + c is the image's (b, c) — and each pruning bit is widened to a 32-bit word, which is
  different from zero exactly when the bit is set.  After it, the region's [128, 512, 512] output is viewed as
  [1, 8, 16, 512, 512].  Row-major positions are kept by both views, so entry (0, b, c, h, w) of the result is the region's
  entry (16 b + c, h, w): the image's entry (b, c, h, w) times the kept weight at (h, w).
-/
import proofs.«125473_g13314398617810_cont_week2b_1435_9_alg».proof.Proof.KernelRegion
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.MaskedImage

open Cert.KernelIdeal Cert.KernelIdeal.Gen

variable (m : (ℓ : Loc nD τ sig) → Buf (Elt Ideal) ℓ) (ρ : Dev nD → PrngReg)

/-- The image as the region finds it is the argument viewed as [128, 512, 512]. -/
theorem entry_image (c : Dev nD) :
    (V m c main_v0 : S128x512x512.Idx → EReal)
      = shapeCast S128x512x512 (m ((c : Thread nD τ).loc main_arg0)) Facts₀.shapeCasts_S8x16x512x512_S128x512x512 := by
  show StableHlo.after hostOps0 (fun b => m (c, b)) (Proc.devRef .tc main_v0) = _
  after_results
  rfl

/-- The pruning words the region finds are the argument's bits, each widened to 32 bits. -/
theorem entry_words (c : Dev nD) :
    (V m c main_v1 : S512x512.Idx → BitVec 32) = extui 32 (m ((c : Thread nD τ).loc main_arg2)) natLt_1_32 := by
  show StableHlo.after hostOps0 (fun b => m (c, b)) (Proc.devRef .tc main_v1) = _
  after_results

/-- Slice n = 16 b + c of the image as the region finds it is the argument's (b, c). -/
theorem entry_image_apply (c : Dev nD) (b : Fin 8) (ch : Fin 16) (h w : Fin 512) (n : Fin 128) (hn : n.val = 16 * b.val + ch.val) :
    V m c main_v0 (ix3 n h w) = m ((c : Thread nD τ).loc main_arg0) (ix4 b ch h w) := by
  rw [entry_image]
  refine shapeCast_apply _ _ (ix3 n h w) (ix4 b ch h w) ?_
  rw [Shape.rowMajor_val_four, Shape.rowMajor_val_three]
  show ((b.val * 16 + ch.val) * 512 + h.val) * 512 + w.val = (n.val * 512 + h.val) * 512 + w.val
  rw [hn]
  omega

/-- The result array is the region's output array viewed as [1, 8, 16, 512, 512]. -/
theorem result_after (c : Dev nD) :
    Pipeline.afterTail₀ cfgs (dats m) 0 (V0 m) [hostOps1] c main_v3
      = shapeCast S1x8x16x512x512 (regionOut (V m c main_v0) (V m c main_arg1) (V m c main_v1))
          Facts₀.shapeCasts_S128x512x512_S1x8x16x512x512 := by
  have e : Pipeline.withArrays (cfgs 0).spec c (V0 m c) (fun w => (dats m 0 c).arrAt w (cfgs 0).N) (Proc.devRef .tc main_v2)
      = regionOut (V m c main_v0) (V m c main_arg1) (V m c main_v1) :=
    (Pipeline.withArrays_arr spec0 launch0.win.arr_inj c _ _ 3).trans (output_final m c)
  unfold Pipeline.afterTail₀
  show StableHlo.after hostOps1 _ (Proc.devRef .tc main_v3) = _
  after_results
  rw [e]
  rfl

/-- THE RESULT: the masked image of the three arguments. -/
theorem result_eq (c : Dev nD) :
    Pipeline.afterTail₀ cfgs (dats m) 0 (V0 m) [hostOps1] c main_v3
      = masked (m ((c : Thread nD τ).loc main_arg0)) (m ((c : Thread nD τ).loc main_arg1)) (m ((c : Thread nD τ).loc main_arg2)) := by
  rw [result_after]
  funext i
  obtain ⟨a, b, ch, h, w, rfl⟩ : ∃ (a : Fin 1) (b : Fin 8) (ch : Fin 16) (h w : Fin 512), i = ix5 a b ch h w :=
    ⟨i 0, i 1, i 2, i 3, i 4, eq_ix5 i⟩
  have ha : a.val = 0 := by have := a.isLt; omega
  have hb : b.val < 8 := b.isLt
  have hch : ch.val < 16 := ch.isLt
  rw [shapeCast_apply _ _ (ix5 a b ch h w) (ix3 (⟨16 * b.val + ch.val, by omega⟩ : Fin 128) h w) (by
    rw [Shape.rowMajor_val_three, Shape.rowMajor_val_five]
    show ((16 * b.val + ch.val) * 512 + h.val) * 512 + w.val = (((a.val * 8 + b.val) * 16 + ch.val) * 512 + h.val) * 512 + w.val
    rw [ha]
    omega)]
  rw [regionOut_apply _ _ _ _ h w rfl rfl, entry_image_apply m c b ch h w _ rfl, V_main_arg1, entry_words]
  show _ * Scalar.select (IntOp.cmpi .ne ((m ((c : Thread nD τ).loc main_arg2) (ix2 h w)).setWidth 32) 0#32) _ _ = _
  rw [widened_ne_zero, select_zero_or]
  rfl

/-- The run: every weakly fair execution ends with the result array at the masked image of the arguments, and the
    arguments as they were. -/
theorem run : θ_run defs (onTc (τ := τ) (main (F := Ideal))) ⟨m, fun _ => 0, ρ⟩ fun r => ∀ c : Dev nD,
      r.2.mem ((c : Thread nD τ).loc main_v3)
        = masked (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.MaskedImage

end
-- ==== Proof.lean ====
/-
  The kernel and its reference compute one function on the extended reals.

  Both take an image [8, 16, 512, 512], a weight [512, 512] and a boolean array `pruned` [512, 512], and return the array
  [1, 8, 16, 512, 512] whose entry (0, b, c, h, w) is

      image[b, c, h, w] · keep[h, w],      keep[h, w] = 0 if pruned[h, w], else weight[h, w].

  The reference spells keep as weight · (0 or 1); the kernel selects between the literal 0 and the weight.  Since
  x · 0 = 0 and x · 1 = x for every extended real x (infinite ones too), the two spellings agree, and the precondition
  that the inputs are finite is never used.  The kernel works on the image viewed as [128, 512, 512], four slices per grid
  step over 32 steps, with each pruning bit widened to a 32-bit word that it compares with zero; the views keep row-major
  positions and the widened word is different from zero exactly when the bit is set.

  The three frames are the programs' generated runs; the idealization rewrote nothing, so `preserves` is trivial; the
  algebraic claim puts the two runs side by side at the masked image of the (agreeing) arguments.
-/
import proofs.«125473_g13314398617810_cont_week2b_1435_9_alg».proof.Defs
import proofs.«125473_g13314398617810_cont_week2b_1435_9_alg».proof.Proof.Gen.Kernel
import proofs.«125473_g13314398617810_cont_week2b_1435_9_alg».proof.Proof.Gen.Kernel.Skeleton
import proofs.«125473_g13314398617810_cont_week2b_1435_9_alg».proof.Proof.Gen.Kernel.Launch
import proofs.«125473_g13314398617810_cont_week2b_1435_9_alg».proof.Proof.Gen.Kernel.Points
import proofs.«125473_g13314398617810_cont_week2b_1435_9_alg».proof.Proof.Gen.Kernel.Frame
import proofs.«125473_g13314398617810_cont_week2b_1435_9_alg».proof.Proof.Gen.KernelIdeal
import proofs.«125473_g13314398617810_cont_week2b_1435_9_alg».proof.Proof.Gen.KernelIdeal.Skeleton
import proofs.«125473_g13314398617810_cont_week2b_1435_9_alg».proof.Proof.Gen.KernelIdeal.Launch
import proofs.«125473_g13314398617810_cont_week2b_1435_9_alg».proof.Proof.Gen.KernelIdeal.Points
import proofs.«125473_g13314398617810_cont_week2b_1435_9_alg».proof.Proof.Gen.KernelIdeal.Frame
import proofs.«125473_g13314398617810_cont_week2b_1435_9_alg».proof.Proof.Gen.ReferenceIdeal
import proofs.«125473_g13314398617810_cont_week2b_1435_9_alg».proof.Proof.Gen.ReferenceIdeal.Run
import proofs.«125473_g13314398617810_cont_week2b_1435_9_alg».proof.Proof.Gen.ReferenceIdeal.Read
import proofs.«125473_g13314398617810_cont_week2b_1435_9_alg».proof.Proof.Gen.Pre_finite_inputs
import proofs.«125473_g13314398617810_cont_week2b_1435_9_alg».proof.Proof.RefSide
import proofs.«125473_g13314398617810_cont_week2b_1435_9_alg».proof.Proof.KernelRun
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as they were: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the masked image of those arguments in their result arrays. -/
theorem algebraic : Cert.algebraic_KernelIdeal_ReferenceIdeal := by
  intro m ρ m' ρ' _ hagree
  refine ⟨fun c => Cert.MaskedImage.masked (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.MaskedImage.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.MaskedImage.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
